-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x2048 : Shape := ⟨3, ![256, 64, 2048]⟩
abbrev S256x9 : Shape := ⟨2, ![256, 9]⟩
abbrev S9x2048 : Shape := ⟨2, ![9, 2048]⟩
abbrev S9 : Shape := ⟨1, ![9]⟩
abbrev S_ : Shape := ⟨0, ![]⟩

class Facts : Prop where
  bcast_S_S256x64x2048 : S_.BroadcastsInDim S256x64x2048 (![] : Fin 0 → Fin S256x64x2048.rank)
  reducesTo_S256x64x2048_S_d0_1_2 : S256x64x2048.ReducesTo [0, 1, 2] S_
  h_S_ : 0 < S_.numel
  bcast_S_S256x9 : S_.BroadcastsInDim S256x9 (![] : Fin 0 → Fin S256x9.rank)
  reducesTo_S256x9_S_d0_1 : S256x9.ReducesTo [0, 1] S_
  bcast_S_S9x2048 : S_.BroadcastsInDim S9x2048 (![] : Fin 0 → Fin S9x2048.rank)
  reducesTo_S9x2048_S_d0_1 : S9x2048.ReducesTo [0, 1] S_
  bcast_S_S9 : S_.BroadcastsInDim S9 (![] : Fin 0 → Fin S9.rank)
  reducesTo_S9_S_d0 : S9.ReducesTo [0] S_

variable [Facts]

def fn_part1 {F : FTy → Type} [FloatOps F] (main_arg4 : FVec F S9 .f32) (main_v13 : IVec S_ 1) (main_v16 : IVec S9x2048 1) : IVec S_ 1 :=
  let main_c_5 : IVec S_ 1 := constantI S_ 1 1#1
  let main_v17 : IVec S_ 1 := (fun x v => Host.reduce IntOp.andi x v reducesTo_S9x2048_S_d0_1 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  main_v23

def fn {F : FTy → Type} [FloatOps F] (main_arg0 : FVec F S256x64x2048 .f32) (main_arg1 : FVec F S256x9 .f32) (main_arg2 : FVec F S256x9 .f32) (main_arg3 : FVec F S9x2048 .f32) (main_arg4 : FVec F S9 .f32) : IVec S_ 1 :=
  let main_v0 : FVec F S256x64x2048 .f32 := Host.absf main_arg0
  let main_cst : FVec F S_ .f32 := constant S_ .f32 0x7F800000#32
  let main_v1 : FVec F S256x64x2048 .f32 := broadcastInDim S256x64x2048 ![] bcast_S_S256x64x2048 main_cst
  let main_v2 : IVec S256x64x2048 1 := cmpf .olt main_v0 main_v1
  let main_c : IVec S_ 1 := constantI S_ 1 1#1
  let main_v3 : IVec S_ 1 := (fun x v => Host.reduce IntOp.andi x v reducesTo_S256x64x2048_S_d0_1_2 h_S_) main_v2 main_c
  let main_v4 : FVec F S256x9 .f32 := Host.absf main_arg1
  let main_cst_0 : FVec F S_ .f32 := constant S_ .f32 0x7F800000#32
  let main_v5 : FVec F S256x9 .f32 := broadcastInDim S256x9 ![] bcast_S_S256x9 main_cst_0
  let main_v6 : IVec S256x9 1 := cmpf .olt main_v4 main_v5
  let main_c_1 : IVec S_ 1 := constantI S_ 1 1#1
  let main_v7 : IVec S_ 1 := (fun x v => Host.reduce IntOp.andi x v reducesTo_S256x9_S_d0_1 h_S_) main_v6 main_c_1
  let main_v8 : IVec S_ 1 := andi main_v3 main_v7
  let main_v9 : FVec F S256x9 .f32 := Host.absf main_arg2
  let main_cst_2 : FVec F S_ .f32 := constant S_ .f32 0x7F800000#32
  let main_v10 : FVec F S256x9 .f32 := broadcastInDim S256x9 ![] bcast_S_S256x9 main_cst_2
  let main_v11 : IVec S256x9 1 := cmpf .olt main_v9 main_v10
  let main_c_3 : IVec S_ 1 := constantI S_ 1 1#1
  let main_v12 : IVec S_ 1 := (fun x v => Host.reduce IntOp.andi x v reducesTo_S256x9_S_d0_1 h_S_) main_v11 main_c_3
  let main_v13 : IVec S_ 1 := andi main_v8 main_v12
  let main_v14 : FVec F S9x2048 .f32 := Host.absf main_arg3
  let main_cst_4 : FVec F S_ .f32 := constant S_ .f32 0x7F800000#32
  let main_v15 : FVec F S9x2048 .f32 := broadcastInDim S9x2048 ![] bcast_S_S9x2048 main_cst_4
  let main_v16 : IVec S9x2048 1 := cmpf .olt main_v14 main_v15
  fn_part1 (F := F) main_arg4 main_v13 main_v16
-- ==== Kernel.lean ====
abbrev S256x64x2048 : Shape := ⟨3, ![256, 64, 2048]⟩
abbrev S256x9 : Shape := ⟨2, ![256, 9]⟩
abbrev S9x2048 : Shape := ⟨2, ![9, 2048]⟩
abbrev S9 : Shape := ⟨1, ![9]⟩
abbrev S_ : Shape := ⟨0, ![]⟩
abbrev S2048x9 : Shape := ⟨2, ![2048, 9]⟩
abbrev S1x9 : Shape := ⟨2, ![1, 9]⟩
abbrev S16x64x2048 : Shape := ⟨3, ![16, 64, 2048]⟩
abbrev S16x9 : Shape := ⟨2, ![16, 9]⟩
abbrev S1024x2048 : Shape := ⟨2, ![1024, 2048]⟩
abbrev S1024x9 : Shape := ⟨2, ![1024, 9]⟩
abbrev S16x64x9 : Shape := ⟨3, ![16, 64, 9]⟩
abbrev S2304 : Shape := ⟨1, ![2304]⟩

abbrev nBuf : Space → Nat
  | .hbm => 30
  | .vmem => 6
  | .smem => 0
  | _ => 0

abbrev bufTy : (tb : Table) → Fin (tcTables nBuf tb) → BufTy
  | .hbm, ⟨0, _⟩ => ⟨S256x64x2048, .f32⟩
  | .hbm, ⟨1, _⟩ => ⟨S256x9, .f32⟩
  | .hbm, ⟨2, _⟩ => ⟨S256x9, .f32⟩
  | .hbm, ⟨3, _⟩ => ⟨S9x2048, .f32⟩
  | .hbm, ⟨4, _⟩ => ⟨S9, .f32⟩
  | .hbm, ⟨5, _⟩ => ⟨S_, .f32⟩
  | .hbm, ⟨6, _⟩ => ⟨S9x2048, .f32⟩
  | .hbm, ⟨7, _⟩ => ⟨S9x2048, .f32⟩
  | .hbm, ⟨8, _⟩ => ⟨S2048x9, .f32⟩
  | .hbm, ⟨9, _⟩ => ⟨S2048x9, .bf16⟩
  | .hbm, ⟨10, _⟩ => ⟨S1x9, .f32⟩
  | .hbm, ⟨11, _⟩ => ⟨S256x9, .f32⟩
  | .hbm, ⟨12, _⟩ => ⟨S2304, .f32⟩
  | .hbm, ⟨13, _⟩ => ⟨S2304, .f32⟩
  | .hbm, ⟨14, _⟩ => ⟨S2304, .f32⟩
  | .hbm, ⟨15, _⟩ => ⟨S_, .f32⟩
  | .hbm, ⟨16, _⟩ => ⟨S2304, .f32⟩
  | .hbm, ⟨17, _⟩ => ⟨S2304, .f32⟩
  | .hbm, ⟨18, _⟩ => ⟨S2304, .f32⟩
  | .hbm, ⟨19, _⟩ => ⟨S2304, .f32⟩
  | .hbm, ⟨20, _⟩ => ⟨S2304, .f32⟩
  | .hbm, ⟨21, _⟩ => ⟨S2304, .f32⟩
  | .hbm, ⟨22, _⟩ => ⟨S2304, .f32⟩
  | .hbm, ⟨23, _⟩ => ⟨S2304, .f32⟩
  | .hbm, ⟨24, _⟩ => ⟨S2304, .f32⟩
  | .hbm, ⟨25, _⟩ => ⟨S2304, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S16x64x2048, .f32⟩
  | .local _ .vmem, ⟨1, _⟩ => ⟨S16x64x2048, .f32⟩
  | .local _ .vmem, ⟨2, _⟩ => ⟨S2048x9, .bf16⟩
  | .local _ .vmem, ⟨3, _⟩ => ⟨S1x9, .f32⟩
  | .local _ .vmem, ⟨4, _⟩ => ⟨S16x9, .f32⟩
  | .local _ .vmem, ⟨5, _⟩ => ⟨S16x9, .f32⟩
  | _, _ => ⟨S256x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x9 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S9x2048 : S_.BroadcastsInDim S9x2048 (![] : Fin 0 → Fin S9x2048.rank)
  transposes_S9x2048_S2048x9_1_0 : S9x2048.Transposes [1, 0] S2048x9
  bitsLt_bf16_f32 : FTy.bits .bf16 < FTy.bits .f32
  shapeCasts_S9_S1x9 : S9.ShapeCasts S1x9
  inb_S16x64x2048_S16x64x2048_0_0_0 : ∀ a, (![0, 0, 0] : Fin 3 → Nat) a + S16x64x2048.size a ≤ S16x64x2048.size a
  h_S16x64x2048 : 0 < S16x64x2048.numel
  shapeCasts_S16x64x2048_S1024x2048 : S16x64x2048.ShapeCasts S1024x2048
  inb_S2048x9_S2048x9_0_0 : ∀ a, (![0, 0] : Fin 2 → Nat) a + S2048x9.size a ≤ S2048x9.size a
  h_S2048x9 : 0 < S2048x9.numel
  shapeCasts_S2048x9_S2048x9 : S2048x9.ShapeCasts S2048x9
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S1024x9 : S1x9.Broadcasts S1024x9
  shapeCasts_S1024x9_S16x64x9 : S1024x9.ShapeCasts S16x64x9
  reduces_S16x64x9_S16x9 : S16x64x9.Reduces [1] S16x9
  inb_S16x9_S16x9_0_0 : ∀ a, (![0, 0] : Fin 2 → Nat) a + S16x9.size a ≤ S16x9.size a
  h_S16x9 : 0 < S16x9.numel
  shapeCasts_S256x9_S2304 : S256x9.ShapeCasts S2304
  bcast_S_S2304 : S_.BroadcastsInDim S2304 (![] : Fin 0 → Fin S2304.rank)
  reducesTo_S2304_S_d0 : S2304.ReducesTo [0] S_
  h_S_ : 0 < S_.numel
  dot_S1024x2048_S2048x9_S1024x9_1_0_0_1_n_n_wf : DotDims.WF S1024x2048 S2048x9 S1024x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x2048.size a ≤ S256x64x2048.size a
  hwx0_0 : ∀ i : grid0.Coords, EltTy.bits .f32 = 32 ∨ (Rect.block (s := S256x64x2048) S16x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x9.size a ≤ S2048x9.size a
  hwx0_1 : ∀ i : grid0.Coords, EltTy.bits .bf16 = 32 ∨ (Rect.block (s := S2048x9) S2048x9.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x9.size a ≤ S1x9.size a
  hwx0_2 : ∀ i : grid0.Coords, EltTy.bits .f32 = 32 ∨ (Rect.block (s := S1x9) S1x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x9.size a ≤ S256x9.size a
  hwx0_3 : ∀ i : grid0.Coords, EltTy.bits .f32 = 32 ∨ (Rect.block (s := S256x9) S16x9.size (cc0_transform_3 i) (hinb0_3 i)).WholeWords (EltTy.packing .f32)

variable [Facts₀]

def dot_S1024x2048_S2048x9_S1024x9_1_0_0_1_n_n : DotDims S1024x2048 S2048x9 S1024x9 where
  lhsContracting := [1]
  rhsContracting := [0]
  lhsNonContracting := [0]
  rhsNonContracting := [1]
  lhsBatch := []
  rhsBatch := []
  wf := dot_S1024x2048_S2048x9_S1024x9_1_0_0_1_n_n_wf

abbrev win0_0 : Pipeline.Window sig grid0 :=
  Pipeline.Window.ofSpec (Memref.whole main_arg0) S16x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x9.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x64x2048 : Shape := ⟨3, ![256, 64, 2048]⟩
abbrev S256x9 : Shape := ⟨2, ![256, 9]⟩
abbrev S9x2048 : Shape := ⟨2, ![9, 2048]⟩
abbrev S9 : Shape := ⟨1, ![9]⟩
abbrev S_ : Shape := ⟨0, ![]⟩
abbrev S256x64x9 : Shape := ⟨3, ![256, 64, 9]⟩
abbrev S1x1x9 : Shape := ⟨3, ![1, 1, 9]⟩
abbrev S2304 : Shape := ⟨1, ![2304]⟩

abbrev nBuf : Space → Nat
  | .hbm => 32
  | .vmem => 0
  | .smem => 0
  | _ => 0

abbrev bufTy : (tb : Table) → Fin (tcTables nBuf tb) → BufTy
  | .hbm, ⟨0, _⟩ => ⟨S256x64x2048, .f32⟩
  | .hbm, ⟨1, _⟩ => ⟨S256x9, .f32⟩
  | .hbm, ⟨2, _⟩ => ⟨S256x9, .f32⟩
  | .hbm, ⟨3, _⟩ => ⟨S9x2048, .f32⟩
  | .hbm, ⟨4, _⟩ => ⟨S9, .f32⟩
  | .hbm, ⟨5, _⟩ => ⟨S_, .f32⟩
  | .hbm, ⟨6, _⟩ => ⟨S256x64x2048, .f32⟩
  | .hbm, ⟨7, _⟩ => ⟨S256x64x2048, .f32⟩
  | .hbm, ⟨8, _⟩ => ⟨S256x64x9, .f32⟩
  | .hbm, ⟨9, _⟩ => ⟨S1x1x9, .f32⟩
  | .hbm, ⟨10, _⟩ => ⟨S256x64x9, .f32⟩
  | .hbm, ⟨11, _⟩ => ⟨S256x64x9, .f32⟩
  | .hbm, ⟨12, _⟩ => ⟨S_, .f32⟩
  | .hbm, ⟨13, _⟩ => ⟨S256x9, .f32⟩
  | .hbm, ⟨14, _⟩ => ⟨S2304, .f32⟩
  | .hbm, ⟨15, _⟩ => ⟨S2304, .f32⟩
  | .hbm, ⟨16, _⟩ => ⟨S2304, .f32⟩
  | .hbm, ⟨17, _⟩ => ⟨S_, .f32⟩
  | .hbm, ⟨18, _⟩ => ⟨S2304, .f32⟩
  | .hbm, ⟨19, _⟩ => ⟨S2304, .f32⟩
  | .hbm, ⟨20, _⟩ => ⟨S2304, .f32⟩
  | .hbm, ⟨21, _⟩ => ⟨S2304, .f32⟩
  | .hbm, ⟨22, _⟩ => ⟨S2304, .f32⟩
  | .hbm, ⟨23, _⟩ => ⟨S2304, .f32⟩
  | .hbm, ⟨24, _⟩ => ⟨S2304, .f32⟩
  | .hbm, ⟨25, _⟩ => ⟨S2304, .f32⟩
  | .hbm, ⟨26, _⟩ => ⟨S2304, .f32⟩
  | .hbm, ⟨27, _⟩ => ⟨S2304, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S256x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S256x64x2048 : S_.BroadcastsInDim S256x64x2048 (![] : Fin 0 → Fin S256x64x2048.rank)
  bcast_S9_S1x1x9_2 : S9.BroadcastsInDim S1x1x9 (![2] : Fin 1 → Fin S1x1x9.rank)
  bcast_S1x1x9_S256x64x9_0_1_2 : S1x1x9.BroadcastsInDim S256x64x9 (![0, 1, 2] : Fin 3 → Fin S256x64x9.rank)
  reducesTo_S256x64x9_S256x9_d1 : S256x64x9.ReducesTo [1] S256x9
  h_S_ : 0 < S_.numel
  shapeCasts_S256x9_S2304 : S256x9.ShapeCasts S2304
  bcast_S_S2304 : S_.BroadcastsInDim S2304 (![] : Fin 0 → Fin S2304.rank)
  reducesTo_S2304_S_d0 : S2304.ReducesTo [0] S_
  dot_S256x64x2048_S9x2048_S256x64x9_2_1_01_0_n_n_wf : DotDims.WF S256x64x2048 S9x2048 S256x64x9 [2] [1] [0, 1] [0] [] []

variable [Facts₀]

def dot_S256x64x2048_S9x2048_S256x64x9_2_1_01_0_n_n : DotDims S256x64x2048 S9x2048 S256x64x9 where
  lhsContracting := [2]
  rhsContracting := [1]
  lhsNonContracting := [0, 1]
  rhsNonContracting := [0]
  lhsBatch := []
  rhsBatch := []
  wf := dot_S256x64x2048_S9x2048_S256x64x9_2_1_01_0_n_n_wf

class Facts : Prop extends Facts₀ where

variable [Facts]
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«146269_j43550968382120_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibMiddleAxis.lean ====
/-
  A reduction over the MIDDLE axis of a three-axis array `[a, b, c]` into `[a, c]`: over the result index `(i, k)` the
  source index whose coordinate on the reduced axis is `n` is `(i, n, k)`.  It holds for any extents; with it a maximum, a
  minimum or a sum over that axis, read at `(i, k)`, ranges over the entries `(i, n, k)`, `n < b`.
-/
import Idealize.ShloMosaic.PureOps.Reduce
import Idealize.ShloMosaic.Lib.ValueIdx

noncomputable section

namespace Cert.LibMiddleAxis

open Idealize.ShloMosaic Idealize.ShloMosaic.ValueIdx

/-- Inserting the coordinate `n` on axis 1 over the result index `(i, k)` gives `(i, n, k)`. -/
theorem lift_middle {a b c : ℕ} (h : (⟨3, ![a, b, c]⟩ : Shape).Reduces [(1 : Fin 3)] ⟨2, ![a, c]⟩) (i : Fin a) (k : Fin c)
    (n : Fin ((⟨3, ![a, b, c]⟩ : Shape).size 1)) : h.lift (ix2 i k) n = ix3 i (n : Fin b) k := by
  funext ax
  apply Fin.ext
  refine (h.lift_val (ix2 i k) n ax).trans ?_
  match ax with
  | ⟨0, _⟩ => rfl
  | ⟨1, _⟩ => rfl
  | ⟨2, _⟩ => rfl

end Cert.LibMiddleAxis

end
-- ==== Proof.PoolSpec.lean ====
/-
  The pooled logits as ONE function of the argument arrays.

  For a sample `p`, an instance `n` and a class `k` the logit is `Σ_d x(p,n,d) · (W(k,d) · 2) + b(k)`; the pooled logit of
  `(p, k)` is the greatest of the 64 instances' logits, taken as the fold of `max` from −∞.  The other reading doubles the
  activations instead of the weights, `Σ_d (x(p,n,d) · 2) · W(k,d) + b(k)`; products on the extended reals commute and
  associate whatever the factors are (zero and the infinities included), so the two readings are one function, term by term.

  `poolOf` is the same function written over a transposed, already doubled weight matrix `Wt` and a one-row bias `B`, the
  operands a blocked computation is handed; `poolOf_eq` says when it is `pooled`.
-/
import Idealize.ShloMosaic.PureOps.Ideal.Laws
import Idealize.ShloMosaic.Lib.ValueIdx

noncomputable section

open scoped BigOperators

namespace Cert.Pooling

open Idealize.ShloMosaic Idealize.ShloMosaic.ValueIdx

/-- The f32 word of `2.0` at the ideal values. -/
abbrev two : EReal := FloatOps.ofBits (F := Ideal) .f32 0x40000000#32
/-- The f32 word of `−∞` at the ideal values: where the maximum over the instances starts. -/
abbrev negInf : EReal := FloatOps.ofBits (F := Ideal) .f32 0xFF800000#32

/-- Doubling the activation or the weight is one product. -/
theorem scale_move (a w t : EReal) : a * t * w = a * (w * t) := by rw [mul_right_comm, mul_assoc]

/-- The logit of sample `p`, instance `n`, class `k`. -/
def logit (x : (⟨3, ![256, 64, 2048]⟩ : Shape).Idx → EReal) (W : (⟨2, ![9, 2048]⟩ : Shape).Idx → EReal)
    (b : (⟨1, ![9]⟩ : Shape).Idx → EReal) (p : Fin 256) (n : Fin 64) (k : Fin 9) : EReal :=
  (∑ d : Fin 2048, x (ix3 p n d) * (W (ix2 k d) * two)) + b (ix1 k)

/-- The same with the activations doubled instead of the weights. -/
theorem logit_eq_scaled_x (x : (⟨3, ![256, 64, 2048]⟩ : Shape).Idx → EReal) (W : (⟨2, ![9, 2048]⟩ : Shape).Idx → EReal)
    (b : (⟨1, ![9]⟩ : Shape).Idx → EReal) (p : Fin 256) (n : Fin 64) (k : Fin 9) :
    (∑ d : Fin 2048, x (ix3 p n d) * two * W (ix2 k d)) + b (ix1 k) = logit x W b p n k := by
  unfold logit
  exact congrArg (· + b (ix1 k)) (Finset.sum_congr rfl fun d _ => scale_move _ _ _)

/-- The pooled logits: for each sample and class the greatest logit over the 64 instances. -/
def pooled (x : (⟨3, ![256, 64, 2048]⟩ : Shape).Idx → EReal) (W : (⟨2, ![9, 2048]⟩ : Shape).Idx → EReal)
    (b : (⟨1, ![9]⟩ : Shape).Idx → EReal) : (⟨2, ![256, 9]⟩ : Shape).Idx → EReal :=
  fun j => (Finset.univ : Finset (Fin 64)).fold max negInf fun n => logit x W b (j 0) n (j 1)

/-- The pooled logits over a `[2048, 9]` weight matrix `Wt` and a one-row bias `B`. -/
def poolOf (X : (⟨3, ![256, 64, 2048]⟩ : Shape).Idx → EReal) (Wt : (⟨2, ![2048, 9]⟩ : Shape).Idx → EReal)
    (B : (⟨2, ![1, 9]⟩ : Shape).Idx → EReal) : (⟨2, ![256, 9]⟩ : Shape).Idx → EReal :=
  fun j => (Finset.univ : Finset (Fin 64)).fold max negInf fun n =>
    (∑ d : Fin 2048, X (ix3 (j 0) n d) * Wt (ix2 d (j 1))) + B (ix2 (0 : Fin 1) (j 1))

/-- When `Wt` is the doubled weight matrix transposed and `B` the bias as one row, `poolOf` is `pooled`. -/
theorem poolOf_eq (X : (⟨3, ![256, 64, 2048]⟩ : Shape).Idx → EReal) (Wt : (⟨2, ![2048, 9]⟩ : Shape).Idx → EReal)
    (B : (⟨2, ![1, 9]⟩ : Shape).Idx → EReal) (W : (⟨2, ![9, 2048]⟩ : Shape).Idx → EReal) (b : (⟨1, ![9]⟩ : Shape).Idx → EReal)
    (hW : ∀ (d : Fin 2048) (k : Fin 9), Wt (ix2 d k) = W (ix2 k d) * two) (hB : ∀ k : Fin 9, B (ix2 (0 : Fin 1) k) = b (ix1 k)) :
    poolOf X Wt B = pooled X W b := by
  funext j
  unfold poolOf pooled logit
  refine congrArg (Finset.fold max negInf · Finset.univ) (funext fun n => ?_)
  exact congrArg₂ (· + ·) (Finset.sum_congr rfl fun d _ => congrArg (X (ix3 (j 0) n d) * ·) (hW d (j 1))) (hB (j 1))

end Cert.Pooling

end
-- ==== Proof.BlockLogits.lean ====
/-
  What the kernel body computes from one step's blocks, entry by entry.

  The body is handed a block of 16 samples `x0 : [16, 64, 2048]`, the whole `[2048, 9]` weight matrix `x1` and the one-row
  bias `x2 : [1, 9]`.  It flattens the block to `1024 = 16 · 64` rows (row `i · 64 + n` is instance `n` of sample `i`),
  multiplies by the weights into a zero accumulator, adds the bias row to every row, unflattens, and takes the maximum over
  the 64 instances from −∞.  At the ideal values (a change of float format is the identity) entry `(i, k)` of the result
  is therefore `max_n (Σ_d x0(i, n, d) · x1(d, k) + x2(0, k))`.
-/
import proofs.«146269_j43550968382120_2_alg».proof.Proof.Gen.KernelIdeal.Skeleton
import proofs.«146269_j43550968382120_2_alg».proof.Proof.LibFlatten3
import proofs.«146269_j43550968382120_2_alg».proof.Proof.LibPlainDotFormats
import proofs.«146269_j43550968382120_2_alg».proof.Proof.LibRowLayout
import proofs.«146269_j43550968382120_2_alg».proof.Proof.LibMiddleAxis
import proofs.«146269_j43550968382120_2_alg».proof.Proof.PoolSpec
import Idealize.ShloMosaic.Lib.Pipeline.Value

noncomputable section

open scoped BigOperators

namespace Cert.Pooling

open Idealize.ShloMosaic Idealize.ShloMosaic.ValueIdx Cert.KernelIdeal Cert.KernelIdeal.Gen

/-- The kernel's contraction is a plain matrix product. -/
theorem plain_dot : Cert.LibPlainDot.Plain dot_S1024x2048_S2048x9_S1024x9_1_0_0_1_n_n := ⟨rfl, rfl, rfl, rfl, rfl, rfl⟩

/-- Entry `(i, k)` of the body's result: the greatest, over the 64 instances of sample `i` of the block, of the instance's
    logit for class `k`. -/
theorem body_apply (x0 : FVec Ideal S16x64x2048 .f32) (x1 : FVec Ideal S2048x9 .bf16) (x2 : FVec Ideal S1x9 .f32)
    (i : Fin 16) (k : Fin 9) :
    k0_pay1 (F := Ideal) x0 x1 x2 (ix2 i k)
      = (Finset.univ : Finset (Fin 64)).fold max negInf fun n =>
          (∑ d : Fin 2048, x0 (ix3 i n d) * x1 (ix2 d k)) + x2 (ix2 (0 : Fin 1) k) := by
  show multiReduction .maximumf [1] S16x9
      (shapeCast S16x64x9
        (addf (matmul dot_S1024x2048_S2048x9_S1024x9_1_0_0_1_n_n none
            (shapeCast S1024x2048 (truncf .bf16 x0 bitsLt_bf16_f32) shapeCasts_S16x64x2048_S1024x2048)
            (shapeCast S2048x9 x1 shapeCasts_S2048x9_S2048x9) (constant S1024x9 .f32 0x00000000#32))
          (broadcastTo S1024x9 (shapeCast S1x9 x2 shapeCasts_S1x9_S1x9) broadcasts_S1x9_S1024x9))
        shapeCasts_S1024x9_S16x64x9)
      0xFF800000#32 reduces_S16x64x9_S16x9 (.inl rfl) rfl (ix2 i k) = _
  refine (Ideal.multiReduction_maximumf_single _ _ reduces_S16x64x9_S16x9 _ _ (ix2 i k)).trans ?_
  refine congrArg (Finset.fold max negInf · Finset.univ) (funext fun n => ?_)
  have hρ : i.val * 64 + n.val < 1024 := by have hi := i.isLt; have hn : n.val < 64 := n.isLt; omega
  refine (congrArg _ (Cert.LibMiddleAxis.lift_middle reduces_S16x64x9_S16x9 i k n)).trans ?_
  refine (Cert.LibFlatten3.shapeCast_mc_abc_apply _ shapeCasts_S1024x9_S16x64x9 i n k ⟨i.val * 64 + n.val, hρ⟩ rfl).trans ?_
  refine congrArg₂ (· + ·) ?_ ?_
  · refine (plain_dot.matmul_zero_apply_formats none _ _ ⟨i.val * 64 + n.val, hρ⟩ k).trans ?_
    refine Finset.sum_congr rfl fun d _ => congrArg₂ (· * ·) ?_ ?_
    · exact Cert.LibFlatten3.shapeCast_abc_mc_apply _ shapeCasts_S16x64x2048_S1024x2048 i n d ⟨i.val * 64 + n.val, hρ⟩ rfl
    · exact congrFun (shapeCast_self x1 shapeCasts_S2048x9_S2048x9) (ix2 d k)
  · refine (Cert.LibRowLayout.broadcastTo_1b_ab_apply _ broadcasts_S1x9_S1024x9 ⟨i.val * 64 + n.val, hρ⟩ k).trans ?_
    exact congrFun (shapeCast_self x2 shapeCasts_S1x9_S1x9) (ix2 (0 : Fin 1) k)

/-- The same at any index `y` of the `[16, 9]` result, by its two coordinates. -/
theorem body_apply_idx (x0 : FVec Ideal S16x64x2048 .f32) (x1 : FVec Ideal S2048x9 .bf16) (x2 : FVec Ideal S1x9 .f32)
    (y : S16x9.Idx) :
    k0_pay1 (F := Ideal) x0 x1 x2 y
      = (Finset.univ : Finset (Fin 64)).fold max negInf fun n =>
          (∑ d : Fin 2048, x0 (ix3 (y 0) n d) * x1 (ix2 d (y 1))) + x2 (ix2 (0 : Fin 1) (y 1)) :=
  (congrArg (k0_pay1 (F := Ideal) x0 x1 x2) (eq_ix2 y)).trans (body_apply x0 x1 x2 (y 0) (y 1))

end Cert.Pooling

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.OperandsFound.lean ====
/-
  The two operands the host prepares before the grid runs, read entry by entry.

  Before the blocked computation the program doubles the weight matrix, transposes it to `[2048, 9]` and narrows it (no
  change at the ideal values), and views the bias vector as one row.  So the matrix the grid is handed holds, at `(d, k)`,
  `W(k, d) · 2`, and the row holds, at `(0, k)`, `b(k)`.
-/
import proofs.«146269_j43550968382120_2_alg».proof.Proof.Gen.KernelIdeal.Frame
import proofs.«146269_j43550968382120_2_alg».proof.Proof.LibJoinedRows
import proofs.«146269_j43550968382120_2_alg».proof.Proof.LibRowLayout
import proofs.«146269_j43550968382120_2_alg».proof.Proof.PoolSpec
import Idealize.ShloMosaic.Lib.StableHlo.Run

noncomputable section

namespace Cert.Pooling

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ)

/-- The program's activations, weights and bias on core `c`, as arrays of extended reals. -/
abbrev argX (c : Dev nD) : FVec Ideal S256x64x2048 .f32 := m ((c : Thread nD τ).loc main_arg0)
abbrev argW (c : Dev nD) : FVec Ideal S9x2048 .f32 := m ((c : Thread nD τ).loc main_arg3)
abbrev argB (c : Dev nD) : FVec Ideal S9 .f32 := m ((c : Thread nD τ).loc main_arg4)
/-- The weight matrix and the bias row as the grid finds them. -/
abbrev foundWt (c : Dev nD) : FVec Ideal S2048x9 .bf16 := V m c main_v3
abbrev foundB (c : Dev nD) : FVec Ideal S1x9 .f32 := V m c main_v4

/-- The weight operand as the grid finds it: the doubled weights, transposed. -/
theorem weights_found (c : Dev nD) :
    foundWt m c
      = truncf .bf16 (transpose S2048x9 [1, 0]
          (mulf (argW m c) (broadcastInDim S9x2048 ![] bcast_S_S9x2048 (constant (F := Ideal) S_ .f32 0x40000000#32)))
          transposes_S9x2048_S2048x9_1_0) bitsLt_bf16_f32 := by
  show StableHlo.after hostOps0 (fun b => m (c, b)) (Proc.devRef .tc main_v3) = _
  after_results <;> rfl

/-- Its entry `(d, k)` is `W(k, d) · 2`. -/
theorem weights_found_apply (c : Dev nD) (d : Fin 2048) (k : Fin 9) :
    foundWt m c (ix2 d k) = argW m c (ix2 k d) * two := by
  rw [weights_found]
  show transpose S2048x9 [1, 0]
      (mulf (argW m c) (broadcastInDim S9x2048 ![] bcast_S_S9x2048 (constant (F := Ideal) S_ .f32 0x40000000#32)))
      transposes_S9x2048_S2048x9_1_0 (ix2 d k) = _
  refine (Cert.LibJoinedRows.transpose2_apply transposes_S9x2048_S2048x9_1_0 _ d k).trans ?_
  refine congrArg (_ * ·) ?_
  exact Cert.LibJoinedRows.bcast_scalar_apply bcast_S_S9x2048 _ (ix2 k d)

/-- The bias operand as the grid finds it: the bias vector as one row. -/
theorem bias_found (c : Dev nD) :
    foundB m c = shapeCast S1x9 (argB m c) shapeCasts_S9_S1x9 := by
  show StableHlo.after hostOps0 (fun b => m (c, b)) (Proc.devRef .tc main_v4) = _
  after_results <;> rfl

/-- Its entry `(0, k)` is `b(k)`. -/
theorem bias_found_apply (c : Dev nD) (k : Fin 9) :
    foundB m c (ix2 (0 : Fin 1) k) = argB m c (ix1 k) := by
  rw [bias_found]
  exact Cert.LibRowLayout.shapeCast_b_1b_apply _ shapeCasts_S9_S1x9 (0 : Fin 1) k

end Cert.Pooling

end
-- ==== Proof.PooledArray.lean ====
/-
  From the 16 steps' blocks to the whole `[256, 9]` array of pooled logits.

  Step `t` of the grid is handed samples `16·t … 16·t + 15` (block `t` of the activations along the sample axis, all of
  the other two axes), the whole weight matrix and the whole bias row, and writes rows `16·t … 16·t + 15` of the result.
  Entry `(i, k)` of what it writes is the pooled logit of sample `16·t + i` and class `k`: the block's entry `(i, n, d)`
  is the array's entry `(16·t + i, n, d)`.  Row `r` of the result lies in the block of step `r / 16`, so the 16 blocks
  cover the array, which therefore ends holding the pooled logits of every sample.
-/
import proofs.«146269_j43550968382120_2_alg».proof.Proof.Gen.KernelIdeal.Frame
import proofs.«146269_j43550968382120_2_alg».proof.Proof.BlockLogits
import proofs.«146269_j43550968382120_2_alg».proof.Proof.OperandsFound
import Idealize.ShloMosaic.Lib.Pipeline.Value

set_option maxRecDepth 16384

noncomputable section

open scoped BigOperators

namespace Cert.Pooling

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block each operand is handed at step `t`: the activations' and the result's move with `t` along the sample axis,
    every other block index is zero. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What step `t` writes back is block `t` of the pooled logits over the operands as the grid finds them. -/
theorem written_eq (c : Dev nD) (t : Fin cfg0.N) :
    (dats m 0 c).flushed 3 t
      = ((cfg0.win 3).blk t).view.read (Elt Ideal) (poolOf (V m c main_arg0) (V m c main_v3) (V m c main_v4)) := by
  show (cfg0.win 3).cut (grid0.coords t) ((dats m 0 c).after 3 t) = _
  rw [after0_3]
  unfold out0_3
  rw [View.canon_unit_zero zero2]
  simp only [View.ld_unit_zero (S := S16x64x2048) zero3, View.ld_unit_zero (S := S2048x9) zero2, View.ld_unit_zero (S := S1x9) zero2]
  obtain ⟨e00, e01, e02, e10, e11, e20, e21, e30, e31⟩ := block_indices t
  funext y
  refine (body_apply_idx (iblk m c 0 t) (iblk m c 1 t) (iblk m c 2 t) y).trans ?_
  show _ = poolOf (V m c main_arg0) (V m c main_v3) (V m c main_v4) (((cfg0.win 3).blk t).view.emb y)
  unfold poolOf
  refine congrArg (Finset.fold max negInf · Finset.univ) (funext fun n => ?_)
  refine congrArg₂ (· + ·) (Finset.sum_congr rfl fun d _ => congrArg₂ (· * ·) ?_ ?_) ?_
  · show V m c main_arg0 (((cfg0.win 0).blk t).view.emb (ix3 (y 0) n d))
      = V m c main_arg0 (ix3 ((((cfg0.win 3).blk t).view.emb y) 0) n d)
    refine congrArg (V m c main_arg0) (funext fun a => Fin.ext ?_)
    match a with
    | ⟨0, _⟩ => show win0_0.index t (0 : Fin 3) * 16 + 1 * (y 0).val = win0_3.index t (0 : Fin 2) * 16 + 1 * (y 0).val; omega
    | ⟨1, _⟩ => show win0_0.index t (1 : Fin 3) * 64 + 1 * n.val = n.val; omega
    | ⟨2, _⟩ => show win0_0.index t (2 : Fin 3) * 2048 + 1 * d.val = d.val; omega
  · show V m c main_v3 (((cfg0.win 1).blk t).view.emb (ix2 d (y 1)))
      = V m c main_v3 (ix2 d ((((cfg0.win 3).blk t).view.emb y) 1))
    refine congrArg (V m c main_v3) (funext fun a => Fin.ext ?_)
    match a with
    | ⟨0, _⟩ => show win0_1.index t (0 : Fin 2) * 2048 + 1 * d.val = d.val; omega
    | ⟨1, _⟩ => show win0_1.index t (1 : Fin 2) * 9 + 1 * (y 1).val = win0_3.index t (1 : Fin 2) * 9 + 1 * (y 1).val; omega
  · show V m c main_v4 (((cfg0.win 2).blk t).view.emb (ix2 (0 : Fin 1) (y 1)))
      = V m c main_v4 (ix2 (0 : Fin 1) ((((cfg0.win 3).blk t).view.emb y) 1))
    refine congrArg (V m c main_v4) (funext fun a => Fin.ext ?_)
    match a with
    | ⟨0, _⟩ => show win0_2.index t (0 : Fin 2) * 1 + 1 * 0 = 0; omega
    | ⟨1, _⟩ => show win0_2.index t (1 : Fin 2) * 9 + 1 * (y 1).val = win0_3.index t (1 : Fin 2) * 9 + 1 * (y 1).val; omega

/-- An entry of the result array is in step `t`'s block iff each coordinate is in the block's range on its axis. -/
theorem mem_block (t : Fin cfg0.N) (i : S256x9.Idx) :
    i ∈ ((cfg0.win 3).blk t).view.set
      ↔ ∀ a : Fin 2, win0_3.index t a * S16x9.size a ≤ (i a).val ∧ (i a).val < win0_3.index t a * S16x9.size a + S16x9.size a := by
  show i ∈ ((View.whole main_v5).slice (win0_3.rect t)).set ↔ _
  rw [View.set_slice_whole, Rect.mem_set_unit]
  exact Iff.rfl

/-- Every entry of the result array is in some step's block: row `r` in the block of step `r / 16`. -/
theorem covered (i : S256x9.Idx) : ∃ t : Fin cfg0.N, (cfg0.win 3).flush t = true ∧ i ∈ ((cfg0.win 3).blk t).view.set := by
  have h0 : (i 0).val < 256 := (i 0).isLt
  have h1 : (i 1).val < 9 := (i 1).isLt
  have hN : cfg0.N = 16 := N_0
  have hlt : (i 0).val / 16 < cfg0.N := by rw [hN]; omega
  obtain ⟨-, -, -, -, -, -, -, e30, e31⟩ := block_indices ⟨(i 0).val / 16, hlt⟩
  refine ⟨⟨(i 0).val / 16, hlt⟩, flush0_3 _, ?_⟩
  rw [mem_block]
  intro a
  match a with
  | ⟨0, _⟩ =>
    show win0_3.index ⟨(i 0).val / 16, hlt⟩ (0 : Fin 2) * 16 ≤ (i 0).val
      ∧ (i 0).val < win0_3.index ⟨(i 0).val / 16, hlt⟩ (0 : Fin 2) * 16 + 16
    rw [e30]
    show (i 0).val / 16 * 16 ≤ (i 0).val ∧ (i 0).val < (i 0).val / 16 * 16 + 16
    omega
  | ⟨1, _⟩ =>
    show win0_3.index ⟨(i 0).val / 16, hlt⟩ (1 : Fin 2) * 9 ≤ (i 1).val
      ∧ (i 1).val < win0_3.index ⟨(i 0).val / 16, hlt⟩ (1 : Fin 2) * 9 + 9
    omega

/-- After the grid, the result array holds the pooled logits of the program's arguments. -/
theorem grid_result (c : Dev nD) :
    (dats m 0 c).arrAt 3 cfg0.N
      = pooled (argX m c) (argW m c) (argB m c) := by
  refine ((dats m 0 c).arrAt_eq_of_cover 3 (poolOf (V m c main_arg0) (V m c main_v3) (V m c main_v4))
    (fun t _ => written_eq m c t) covered).trans ?_
  rw [V_main_arg0]
  exact poolOf_eq _ (foundWt m c) (foundB m c) (argW m c) (argB m c) (weights_found_apply m c) (bias_found_apply m c)

end Cert.Pooling

end
-- ==== Proof.Loss.lean ====
/-
  The weighted loss as a function of the pooled logits.

  From the `[256, 9]` pooled logits `z`, the targets `t` and the weights `w`, all three flattened to 2304 entries, the
  loss is `(Σ_e w_e · (max(z_e, 0) − z_e · t_e + log1p(exp(−|z_e|)))) / 2304`.  Both programs end with exactly these
  operations in this order, so the loss is kept as ONE closed term and never opened: two programs that hand it the same
  pooled logits return the same loss.
-/
import proofs.«146269_j43550968382120_2_alg».proof.Proof.Gen.ReferenceIdeal.Read

noncomputable section

namespace Cert.Pooling

open Idealize.ShloMosaic Cert.ReferenceIdeal Cert.ReferenceIdeal.Gen Cert.ReferenceIdeal.Read

/-- The loss of the pooled logits `z` against the targets `t` under the weights `w`. -/
def lossOf (z t w : FVec Ideal S256x9 .f32) : FVec Ideal S_ .f32 :=
  Host.divf (F := Ideal)
    (Host.reduceAdd (F := Ideal)
      (mulf (shapeCast _ w shapeCasts_S256x9_S2304)
        (addf
          (subf
            (maximumf (shapeCast _ z shapeCasts_S256x9_S2304)
              (broadcastInDim S2304 ![] bcast_S_S2304 (constant (F := Ideal) S_ .f32 0x00000000#32)))
            (mulf (shapeCast _ z shapeCasts_S256x9_S2304) (shapeCast _ t shapeCasts_S256x9_S2304)))
          (Host.log1p (F := Ideal) (Host.exp (F := Ideal) (Host.negf (F := Ideal) (Host.absf (F := Ideal) (shapeCast _ z shapeCasts_S256x9_S2304)))))))
      (constant (F := Ideal) S_ .f32 0x00000000#32) reducesTo_S2304_S_d0 h_S_)
    (constant (F := Ideal) S_ .f32 0x45100000#32)

/-- The reference's result is the loss of its pooled logits. -/
theorem ref_loss (x0 : FVec Ideal S256x64x2048 .f32) (x1 x2 : FVec Ideal S256x9 .f32) (x3 : FVec Ideal S9x2048 .f32)
    (x4 : FVec Ideal S9 .f32) :
    val_main_v21 (F := Ideal) x0 x1 x2 x3 x4 = lossOf (val_main_v6 (F := Ideal) x0 x3 x4) x1 x2 := rfl

end Cert.Pooling

end
-- ==== Proof.KernelRun.lean ====
/-
  The blocked program's run, read: it ends with the loss of the pooled logits of its arguments.

  After the grid the result array holds the pooled logits (`grid_result`); the targets and the loss weights are untouched
  by the grid and by the host operations before it.  The host operations after the grid are exactly the loss's operations
  applied to those three arrays, so the program's result is `lossOf` of the pooled logits, the targets and the weights.
-/
import proofs.«146269_j43550968382120_2_alg».proof.Proof.Gen.KernelIdeal.Frame
import proofs.«146269_j43550968382120_2_alg».proof.Proof.PooledArray
import proofs.«146269_j43550968382120_2_alg».proof.Proof.Loss
import Idealize.ShloMosaic.Lib.StableHlo.Run

noncomputable section

namespace Cert.Pooling

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The targets and the loss weights on core `c`, as arrays of extended reals. -/
abbrev argT (c : Dev nD) : FVec Ideal S256x9 .f32 := m ((c : Thread nD τ).loc main_arg1)
abbrev argL (c : Dev nD) : FVec Ideal S256x9 .f32 := m ((c : Thread nD τ).loc main_arg2)

/-- What the host operations after the grid leave in the result: the loss of the pooled logits. -/
theorem tail_result (c : Dev nD) :
    Pipeline.afterTail₀ cfgs (dats m) 0 (V0 m) [hostOps1] c main_v20
      = lossOf (pooled (argX m c) (argW m c) (argB m c)) (argT m c) (argL m c) := by
  have hz : Pipeline.withArrays (cfgs 0).spec c (V0 m c) (fun w => (dats m 0 c).arrAt w (cfgs 0).N) (Proc.devRef .tc main_v5)
      = pooled (argX m c) (argW m c) (argB m c) :=
    (Pipeline.withArrays_arr spec0 launch0.win.arr_inj c _ _ 3).trans (grid_result m c)
  have ht : Pipeline.withArrays (cfgs 0).spec c (V0 m c) (fun w => (dats m 0 c).arrAt w (cfgs 0).N) (Proc.devRef .tc main_arg1)
      = argT m c :=
    (Pipeline.withArrays_of_ne _ c (V0 m c) _ main_arg1 (by exact (by decide : ∀ w, Pipeline.arrRef spec0 w ≠ main_arg1))).trans
      (V_main_arg1 m c)
  have hl : Pipeline.withArrays (cfgs 0).spec c (V0 m c) (fun w => (dats m 0 c).arrAt w (cfgs 0).N) (Proc.devRef .tc main_arg2)
      = argL m c :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v20) = _
  after_results
  rw [hz, ht, hl]
  rfl

/-- Every weakly fair execution of the blocked program ends with its result at the loss of the pooled logits of its
    arguments, and its arguments as they were. -/
theorem kernel_run : θ_run defs (onTc (τ := τ) (main (F := Ideal))) ⟨m, fun _ => 0, ρ⟩ fun r => ∀ c : Dev nD,
      r.2.mem ((c.tc : Thread nD τ).loc main_v20) = lossOf (pooled (argX m c) (argW m c) (argB m c)) (argT m c) (argL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v20 (Pipeline.mem_restRefs_of main_v20 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Pooling

end
-- ==== Proof.RefPooled.lean ====
/-
  The reference's pooled logits are `pooled` of its arguments.

  The reference doubles the activations, contracts them with the weights over the feature axis, adds the bias (spread over
  samples and instances) and takes the maximum over the instance axis from −∞.  Read at `(p, k)`: the maximum over the
  instances `n` of `Σ_d (x(p,n,d) · 2) · W(k,d) + b(k)`, which is the logit with the doubling moved onto the weight.
-/
import proofs.«146269_j43550968382120_2_alg».proof.Proof.Gen.ReferenceIdeal.Read
import proofs.«146269_j43550968382120_2_alg».proof.Proof.LibMiddleAxis
import proofs.«146269_j43550968382120_2_alg».proof.Proof.PoolSpec

noncomputable section

open scoped BigOperators

namespace Cert.Pooling

open Idealize.ShloMosaic Idealize.ShloMosaic.ValueIdx Cert.ReferenceIdeal Cert.ReferenceIdeal.Gen Cert.ReferenceIdeal.Read

/-- The reduction over the instance axis, as the fact the coordinate insertion is defined from. -/
theorem ref_reduces : Cert.ReferenceIdeal.S256x64x9.Reduces [(1 : Fin 3)] Cert.ReferenceIdeal.S256x9 := by decide

/-- One entry `(p, n, k)` of the reference's biased product. -/
theorem ref_logit (x0 : FVec Ideal Cert.ReferenceIdeal.S256x64x2048 .f32) (x3 : FVec Ideal Cert.ReferenceIdeal.S9x2048 .f32)
    (x4 : FVec Ideal Cert.ReferenceIdeal.S9 .f32) (p : Fin 256) (n : Fin 64) (k : Fin 9) :
    val_main_v5 (F := Ideal) x0 x3 x4 (ix3 p n k) = logit x0 x3 x4 p n k := by
  rw [val_main_v5_apply, val_main_v2_apply, val_main_v4_apply, val_main_v3_apply]
  rw [← logit_eq_scaled_x]
  refine congrArg₂ (· + ·) (Finset.sum_congr rfl fun d _ => ?_) ?_
  · have el : lidx_main_v2 (ix3 p n k) d = ix3 p n d := funext fun a => Fin.ext (by
      match a with
      | ⟨0, _⟩ => rfl
      | ⟨1, _⟩ => rfl
      | ⟨2, _⟩ => rfl)
    have er : ridx_main_v2 (ix3 p n k) d = ix2 k d := funext fun a => Fin.ext (by
      match a with
      | ⟨0, _⟩ => rfl
      | ⟨1, _⟩ => rfl)
    rw [el, er, val_main_v1_apply, val_main_v0_apply, val_main_cst_apply]
    rfl
  · exact congrArg x4 (funext fun a => Fin.ext (by
      match a with
      | ⟨0, _⟩ => rfl))

/-- The reference's pooled array. -/
theorem ref_pooled (x0 : FVec Ideal Cert.ReferenceIdeal.S256x64x2048 .f32) (x3 : FVec Ideal Cert.ReferenceIdeal.S9x2048 .f32)
    (x4 : FVec Ideal Cert.ReferenceIdeal.S9 .f32) :
    val_main_v6 (F := Ideal) x0 x3 x4 = pooled x0 x3 x4 := by
  funext j
  obtain ⟨p, k, rfl⟩ : ∃ (p : Fin 256) (k : Fin 9), j = ix2 p k := ⟨j 0, j 1, eq_ix2 j⟩
  unfold val_main_v6
  refine (Host.reduce_eq_fold_single FloatOps.maximumf _ _ reducesTo_S256x64x9_S256x9_d1 ref_reduces h_S_ (ix2 p k)).trans ?_
  refine congrArg (Finset.fold max negInf · Finset.univ) (funext fun n => ?_)
  exact (congrArg _ (Cert.LibMiddleAxis.lift_middle ref_reduces p k n)).trans (ref_logit x0 x3 x4 p n k)

end Cert.Pooling

end
-- ==== Proof.lean ====
/-
  A pooled classifier's weighted loss, computed two ways.

  For 256 samples of 64 instances with 2048 features each, a linear layer to 9 classes is applied to every instance, the
  logits are pooled by the maximum over the instances, and a weighted binary cross-entropy of the pooled logits against the
  targets is averaged over the 2304 (sample, class) pairs.  One program doubles the ACTIVATIONS before the layer; the other
  doubles the WEIGHTS, and computes the pooled logits 16 samples at a time.  Over the extended reals a product may be
  regrouped and reordered whatever its factors are, so `x · (W · 2) = (x · 2) · W` term by term, the two arrays of pooled
  logits are one function of the arguments (`Cert.Pooling.pooled`), and both programs apply the same loss to it.  No
  finiteness of the inputs is used.

  The pieces: `PoolSpec` (the pooled logits as one function; the regrouping), `BlockLogits` (what one step computes from its
  blocks), `OperandsFound` (the doubled, transposed weights and the bias row the grid is handed), `PooledArray` (the 16
  blocks make the whole array), `Loss` (the common loss), `KernelRun` (the blocked program's result), `RefPooled` (the
  other program's pooled logits).
-/
import proofs.«146269_j43550968382120_2_alg».proof.Defs
import proofs.«146269_j43550968382120_2_alg».proof.Proof.Gen.Kernel
import proofs.«146269_j43550968382120_2_alg».proof.Proof.Gen.Kernel.Skeleton
import proofs.«146269_j43550968382120_2_alg».proof.Proof.Gen.Kernel.Launch
import proofs.«146269_j43550968382120_2_alg».proof.Proof.Gen.Kernel.Points
import proofs.«146269_j43550968382120_2_alg».proof.Proof.Gen.Kernel.Frame
import proofs.«146269_j43550968382120_2_alg».proof.Proof.Gen.KernelIdeal
import proofs.«146269_j43550968382120_2_alg».proof.Proof.Gen.KernelIdeal.Skeleton
import proofs.«146269_j43550968382120_2_alg».proof.Proof.Gen.KernelIdeal.Launch
import proofs.«146269_j43550968382120_2_alg».proof.Proof.Gen.KernelIdeal.Points
import proofs.«146269_j43550968382120_2_alg».proof.Proof.Gen.KernelIdeal.Frame
import proofs.«146269_j43550968382120_2_alg».proof.Proof.Gen.ReferenceIdeal
import proofs.«146269_j43550968382120_2_alg».proof.Proof.Gen.ReferenceIdeal.Run
import proofs.«146269_j43550968382120_2_alg».proof.Proof.Gen.ReferenceIdeal.Read
import proofs.«146269_j43550968382120_2_alg».proof.Proof.Gen.Pre_finite_inputs
import proofs.«146269_j43550968382120_2_alg».proof.Proof.KernelRun
import proofs.«146269_j43550968382120_2_alg».proof.Proof.RefPooled
import Idealize.ShloMosaic.Adequacy
import Idealize.ShloMosaic.Init

noncomputable section

namespace Cert.Proof

open Idealize.ShloMosaic Idealize.SL.Sem

/-- The blocked program as printed runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The other program is a straight line of host operations: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the blocked program over the extended reals rewrote none of its operations. -/
theorem preserves : Cert.preserves_Kernel_KernelIdeal := trivial

/-- From arguments that agree both programs end with the loss of the pooled logits of those arguments: the blocked
    program by `kernel_run`; the other by its run, whose pooled logits are `pooled` of its arguments (`ref_pooled`) and
    whose remaining operations are the loss (`ref_loss`). -/
theorem algebraic : Cert.algebraic_KernelIdeal_ReferenceIdeal := by
  intro m ρ m' ρ' _ hagree
  refine ⟨fun c => Cert.Pooling.lossOf
      (Cert.Pooling.pooled (Cert.Pooling.argX m c) (Cert.Pooling.argW m c) (Cert.Pooling.argB m c))
      (Cert.Pooling.argT m c) (Cert.Pooling.argL m c), Cert.Pooling.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Pooling.ref_loss, Cert.Pooling.ref_pooled,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
